-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x30x1x72x72 : Shape := ⟨6, ![32, 8, 30, 1, 72, 72]⟩
abbrev S32x8x30 : Shape := ⟨3, ![32, 8, 30]⟩
abbrev S_ : Shape := ⟨0, ![]⟩

class Facts : Prop where
  bcast_S_S32x8x30x1x72x72 : S_.BroadcastsInDim S32x8x30x1x72x72 (![] : Fin 0 → Fin S32x8x30x1x72x72.rank)
  reducesTo_S32x8x30x1x72x72_S_d0_1_2_3_4_5 : S32x8x30x1x72x72.ReducesTo [0, 1, 2, 3, 4, 5] S_
  h_S_ : 0 < S_.numel

variable [Facts]

def fn {F : FTy → Type} [FloatOps F] (main_arg0 : FVec F S32x8x30x1x72x72 .f32) (main_arg1 : IVec S32x8x30 1) : IVec S_ 1 :=
  let main_v0 : FVec F S32x8x30x1x72x72 .f32 := Host.absf main_arg0
  let main_cst : FVec F S_ .f32 := constant S_ .f32 0x7F800000#32
  let main_v1 : FVec F S32x8x30x1x72x72 .f32 := broadcastInDim S32x8x30x1x72x72 ![] bcast_S_S32x8x30x1x72x72 main_cst
  let main_v2 : IVec S32x8x30x1x72x72 1 := cmpf .olt main_v0 main_v1
  let main_c : IVec S_ 1 := constantI S_ 1 1#1
  let main_v3 : IVec S_ 1 := (fun x v => Host.reduce IntOp.andi x v reducesTo_S32x8x30x1x72x72_S_d0_1_2_3_4_5 h_S_) main_v2 main_c
  main_v3
-- ==== Kernel.lean ====
abbrev S32x8x30x1x72x72 : Shape := ⟨6, ![32, 8, 30, 1, 72, 72]⟩
abbrev S32x8x30 : Shape := ⟨3, ![32, 8, 30]⟩
abbrev S256x30x5184 : Shape := ⟨3, ![256, 30, 5184]⟩
abbrev S256x30 : Shape := ⟨2, ![256, 30]⟩
abbrev S256x1 : Shape := ⟨2, ![256, 1]⟩
abbrev S32x30x5184 : Shape := ⟨3, ![32, 30, 5184]⟩
abbrev S32x30 : Shape := ⟨2, ![32, 30]⟩
abbrev S32x1 : Shape := ⟨2, ![32, 1]⟩
abbrev S32 : Shape := ⟨1, ![32]⟩
abbrev S256 : Shape := ⟨1, ![256]⟩

abbrev nBuf : Space → Nat
  | .hbm => 7
  | .vmem => 6
  | .smem => 0
  | _ => 0

abbrev bufTy : (tb : Table) → Fin (tcTables nBuf tb) → BufTy
  | .hbm, ⟨0, _⟩ => ⟨S32x8x30x1x72x72, .f32⟩
  | .hbm, ⟨1, _⟩ => ⟨S32x8x30, .i1⟩
  | .hbm, ⟨2, _⟩ => ⟨S256x30x5184, .f32⟩
  | .hbm, ⟨3, _⟩ => ⟨S256x30, .i1⟩
  | .hbm, ⟨4, _⟩ => ⟨S256x30, .i32⟩
  | .hbm, ⟨5, _⟩ => ⟨S256x1, .f32⟩
  | .hbm, ⟨6, _⟩ => ⟨S256, .f32⟩
  | .local _ .vmem, ⟨0, _⟩ => ⟨S32x30x5184, .f32⟩
  | .local _ .vmem, ⟨1, _⟩ => ⟨S32x30x5184, .f32⟩
  | .local _ .vmem, ⟨2, _⟩ => ⟨S32x30, .i32⟩
  | .local _ .vmem, ⟨3, _⟩ => ⟨S32x30, .i32⟩
  | .local _ .vmem, ⟨4, _⟩ => ⟨S32x1, .f32⟩
  | .local _ .vmem, ⟨5, _⟩ => ⟨S32x1, .f32⟩
  | _, _ => ⟨S32x8x30x1x72x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x30x5184 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x30 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x8x30x1x72x72_S256x30x5184 : S32x8x30x1x72x72.ShapeCasts S256x30x5184
  shapeCasts_S32x8x30_S256x30 : S32x8x30.ShapeCasts S256x30
  natLt_1_32 : 1 < 32
  inb_S32x30x5184_S32x30x5184_0_0_0 : ∀ a, (![0, 0, 0] : Fin 3 → Nat) a + S32x30x5184.size a ≤ S32x30x5184.size a
  h_S32x30x5184 : 0 < S32x30x5184.numel
  shapeCasts_S32x30x5184_S32x30x5184 : S32x30x5184.ShapeCasts S32x30x5184
  reduces_S32x30x5184_S32x30 : S32x30x5184.Reduces [2] S32x30
  inb_S32x30_S32x30_0_0 : ∀ a, (![0, 0] : Fin 2 → Nat) a + S32x30.size a ≤ S32x30.size a
  h_S32x30 : 0 < S32x30.numel
  shapeCasts_S32x30_S32x30 : S32x30.ShapeCasts S32x30
  reduces_S32x30_S32 : S32x30.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S256x1_S256 : S256x1.ShapeCasts S256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x30x5184.size a ≤ S256x30x5184.size a
  hwx0_0 : ∀ i : grid0.Coords, EltTy.bits .f32 = 32 ∨ (Rect.block (s := S256x30x5184) S32x30x5184.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x30.size a ≤ S256x30.size a
  hwx0_1 : ∀ i : grid0.Coords, EltTy.bits .i32 = 32 ∨ (Rect.block (s := S256x30) S32x30.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S256x1.size a
  hwx0_2 : ∀ i : grid0.Coords, EltTy.bits .f32 = 32 ∨ (Rect.block (s := S256x1) S32x1.size (cc0_transform_2 i) (hinb0_2 i)).WholeWords (EltTy.packing .f32)

variable [Facts₀]

abbrev win0_0 : Pipeline.Window sig grid0 :=
  Pipeline.Window.ofSpec (Memref.whole main_v0) S32x30x5184.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8x30x1x72x72 : Shape := ⟨6, ![32, 8, 30, 1, 72, 72]⟩
abbrev S32x8x30 : Shape := ⟨3, ![32, 8, 30]⟩
abbrev S256x30x5184 : Shape := ⟨3, ![256, 30, 5184]⟩
abbrev S_ : Shape := ⟨0, ![]⟩
abbrev S256x30 : Shape := ⟨2, ![256, 30]⟩
abbrev S256 : Shape := ⟨1, ![256]⟩

abbrev nBuf : Space → Nat
  | .hbm => 13
  | .vmem => 0
  | .smem => 0
  | _ => 0

abbrev bufTy : (tb : Table) → Fin (tcTables nBuf tb) → BufTy
  | .hbm, ⟨0, _⟩ => ⟨S32x8x30x1x72x72, .f32⟩
  | .hbm, ⟨1, _⟩ => ⟨S32x8x30, .i1⟩
  | .hbm, ⟨2, _⟩ => ⟨S256x30x5184, .f32⟩
  | .hbm, ⟨3, _⟩ => ⟨S_, .f32⟩
  | .hbm, ⟨4, _⟩ => ⟨S256x30, .f32⟩
  | .hbm, ⟨5, _⟩ => ⟨S256x30, .i1⟩
  | .hbm, ⟨6, _⟩ => ⟨S256x30, .f32⟩
  | .hbm, ⟨7, _⟩ => ⟨S256x30, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | _, _ => ⟨S32x8x30x1x72x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S32x8x30x1x72x72_S256x30x5184 : S32x8x30x1x72x72.ShapeCasts S256x30x5184
  reducesTo_S256x30x5184_S256x30_d2 : S256x30x5184.ReducesTo [2] S256x30
  h_S_ : 0 < S_.numel
  shapeCasts_S32x8x30_S256x30 : S32x8x30.ShapeCasts S256x30
  reducesTo_S256x30_S256_d1 : S256x30.ReducesTo [1] S256

variable [Facts₀]

class Facts : Prop extends Facts₀ where

variable [Facts]
-- ==== Proof.LibMaskedRowMax.lean ====
/-
  The mean, over the selected entries of a row, of each entry's maximum over a trailing axis.

  For an array X of extents [R, K, L] and weights W of extents [R, K] the function is, at row r,
      ( Σ_k (max_l X[r, k, l]) · W[r, k] ) / ( Σ_k W[r, k] )
  on the extended reals: the maximum is the fold of max from -∞ over the L entries, the two sums are
  finite sums over the K entries, and the quotient is the ideal division (with its conventions at a
  zero divisor). With W the 0/1 image of a boolean mask this is the masked mean of the maxima.

  Proved here, all at the ideal values:
  * the two casts between a vector [R] and a column [R, 1], read at an index;
  * a vector reduction <maximumf> over the last axis of a rank-3 array, and the host's reduce with a
    maximum body from the -∞ word, are both the row maximum rowMax;
  * a vector reduction <add> over the last axis of a rank-2 array is the finite sum of the row, and the
    host's reduce with an add body from the zero word is the same sum;
  * the weight of a 32-bit mask word (wordWeight: the test "word ≠ 0" widened and converted as a signed
    integer) is, for a bit widened to 32 bits, the bit converted as an unsigned integer;
  * the function reads row r of X and of W only, so a tile of rows of the result is the result of
    the tile of rows (maskedMean_congr).
-/
import Idealize.ShloMosaic.PureOps.Ideal.Laws
import Idealize.ShloMosaic.Lib.ValueIdx
import Idealize.ShloMosaic.Lib.Pipeline.Value

noncomputable section

namespace Cert.MaskedRowMax

open Idealize.ShloMosaic Idealize.ShloMosaic.ValueIdx

variable {α : Type} {R K L : ℕ}

/-! ## A vector and a column -/

/-- An [R] vector cast to an [R, 1] column reads, at (r, u), the vector at r. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An [R, 1] column cast to an [R] vector reads, at r, the column at (r, 0). -/
theorem shapeCast_a1_a_apply (x : (⟨2, ![R, 1]⟩ : Shape).Idx → α) (h : (⟨2, ![R, 1]⟩ : Shape).ShapeCasts ⟨1, ![R]⟩)
    (r : Fin R) : shapeCast ⟨1, ![R]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-! ## The function -/

/-- The largest of the L entries X[r, k, ·], from -∞. -/
def rowMax (X : (⟨3, ![R, K, L]⟩ : Shape).Idx → EReal) (r : Fin R) (k : Fin K) : EReal :=
  (Finset.univ : Finset (Fin L)).fold max (Ideal.ofBits .f32 0xFF800000#32) (fun l => X (ix3 r k l))

/-- The weighted mean of the row maxima of row r: Σ_k rowMax · W over Σ_k W. -/
def maskedMean (X : (⟨3, ![R, K, L]⟩ : Shape).Idx → EReal) (W : (⟨2, ![R, K]⟩ : Shape).Idx → EReal) (r : Fin R) : EReal :=
  Ideal.div (∑ k : Fin K, rowMax X r k * W (ix2 r k)) (∑ k : Fin K, W (ix2 r k))

/-- Row r of the result depends on row r of the two arguments only: arrays that agree there, at rows
    r' and r of possibly different heights, give the same value. -/
theorem maskedMean_congr {R' : ℕ} (X' : (⟨3, ![R', K, L]⟩ : Shape).Idx → EReal) (W' : (⟨2, ![R', K]⟩ : Shape).Idx → EReal)
    (X : (⟨3, ![R, K, L]⟩ : Shape).Idx → EReal) (W : (⟨2, ![R, K]⟩ : Shape).Idx → EReal) (r' : Fin R') (r : Fin R)
    (hX : ∀ k l, X' (ix3 r' k l) = X (ix3 r k l)) (hW : ∀ k, W' (ix2 r' k) = W (ix2 r k)) :
    maskedMean X' W' r' = maskedMean X W r := by
  unfold maskedMean rowMax
  simp only [hX, hW]

/-- The function of arguments given in other shapes of the same sizes: X reshaped to [R, K, L], the boolean
    mask reshaped to [R, K] and read as 0 / 1, the result a vector of R entries. -/
def maskedMeanOf {s0 s1 : Shape} (x0 : s0.Idx → EReal) (x1 : s1.Idx → BitVec 1)
    (h0 : s0.ShapeCasts ⟨3, ![R, K, L]⟩) (h1 : s1.ShapeCasts ⟨2, ![R, K]⟩) : (⟨1, ![R]⟩ : Shape).Idx → EReal :=
  fun j => maskedMean (shapeCast ⟨3, ![R, K, L]⟩ x0 h0)
    (fun j' => FloatOps.uitofp (F := Ideal) .f32 (shapeCast ⟨2, ![R, K]⟩ x1 h1 j')) (j 0)

/-! ## The reductions -/

/-- A vector reduction <maximumf> over the last axis, from the -∞ word, is the row maximum. -/
theorem multiReduction_max_last (x : FVec Ideal ⟨3, ![R, K, L]⟩ .f32)
    (h : (⟨3, ![R, K, L]⟩ : Shape).Reduces [2] ⟨2, ![R, K]⟩) (hφ : FKind.Formats .f32)
    (hacc : (0xFF800000#32 : BitVec 32) = FKind.maximumf.neutral .f32 hφ) (r : Fin R) (k : Fin K) :
    multiReduction .maximumf [2] ⟨2, ![R, K]⟩ x 0xFF800000#32 h hφ hacc (ix2 r k) = rowMax x r k := by
  refine (Ideal.multiReduction_maximumf_single x 0xFF800000#32 h hφ hacc (ix2 r k)).trans ?_
  unfold rowMax
  show Finset.fold max _ (x ∘ h.lift (ix2 r k)) (Finset.univ : Finset (Fin L)) = _
  refine congrArg (fun f => Finset.fold max _ f (Finset.univ : Finset (Fin L))) (funext fun l => ?_)
  exact congrArg x (funext fun c => Fin.ext (by match c with | ⟨0, _⟩ => rfl | ⟨1, _⟩ => rfl | ⟨2, _⟩ => rfl))

/-- The host's reduce with a maximum body over the last axis, from the -∞ word, is the row maximum. -/
theorem hostReduce_max_last (x : FVec Ideal ⟨3, ![R, K, L]⟩ .f32)
    (h' : (⟨3, ![R, K, L]⟩ : Shape).ReducesTo [2] ⟨2, ![R, K]⟩) (h : (⟨3, ![R, K, L]⟩ : Shape).Reduces [2] ⟨2, ![R, K]⟩)
    (hu : 0 < (⟨0, ![]⟩ : Shape).numel) (r : Fin R) (k : Fin K) :
    Host.reduce FloatOps.maximumf x (constant (F := Ideal) ⟨0, ![]⟩ .f32 0xFF800000#32) h' hu (ix2 r k) = rowMax x r k := by
  refine (Host.reduce_eq_fold_single FloatOps.maximumf x _ h' h hu (ix2 r k)).trans ?_
  unfold rowMax
  show Finset.fold max _ (x ∘ h.lift (ix2 r k)) (Finset.univ : Finset (Fin L)) = _
  refine congrArg (fun f => Finset.fold max _ f (Finset.univ : Finset (Fin L))) (funext fun l => ?_)
  exact congrArg x (funext fun c => Fin.ext (by match c with | ⟨0, _⟩ => rfl | ⟨1, _⟩ => rfl | ⟨2, _⟩ => rfl))

/-- A vector reduction <add> over the last axis of a rank-2 array is the finite sum of the row. -/
theorem multiReduction_add_last (y : FVec Ideal ⟨2, ![R, K]⟩ .f32)
    (h : (⟨2, ![R, K]⟩ : Shape).Reduces [1] ⟨1, ![R]⟩) (hφ : FKind.Formats .f32)
    (hacc : (0x00000000#32 : BitVec 32) = FKind.add.neutral .f32 hφ) (r : Fin R) :
    multiReduction .add [1] ⟨1, ![R]⟩ y 0x00000000#32 h hφ hacc (ix1 r) = ∑ k : Fin K, y (ix2 r k) := by
  refine (Ideal.multiReduction_add_single y 0x00000000#32 h hφ hacc (ix1 r)).trans ?_
  show ∑ k : Fin K, y (h.lift (ix1 r) k) = _
  refine Finset.sum_congr rfl fun k _ => ?_
  exact congrArg y (funext fun c => Fin.ext (by match c with | ⟨0, _⟩ => rfl | ⟨1, _⟩ => rfl))

/-- The host's reduce with an add body over the last axis of a rank-2 array, from the zero word, is the
    same finite sum. -/
theorem hostReduceAdd_last (y : FVec Ideal ⟨2, ![R, K]⟩ .f32)
    (h' : (⟨2, ![R, K]⟩ : Shape).ReducesTo [1] ⟨1, ![R]⟩) (h : (⟨2, ![R, K]⟩ : Shape).Reduces [1] ⟨1, ![R]⟩)
    (hu : 0 < (⟨0, ![]⟩ : Shape).numel) (r : Fin R) :
    Host.reduceAdd y (constant (F := Ideal) ⟨0, ![]⟩ .f32 0x00000000#32) h' hu (ix1 r) = ∑ k : Fin K, y (ix2 r k) := by
  unfold Host.reduceAdd
  rw [Ideal.hostReduceAdd_def]
  refine (Ideal.hostReduceAdd_single h' h y _ (ix1 r)).trans ?_
  show Ideal.ofBits .f32 0x00000000#32 + ∑ k : Fin K, y (h.lift (ix1 r) k) = _
  rw [Ideal.ofBits_zero_f32, zero_add]
  refine Finset.sum_congr rfl fun k _ => ?_
  exact congrArg y (funext fun c => Fin.ext (by match c with | ⟨0, _⟩ => rfl | ⟨1, _⟩ => rfl))

/-! ## The mask bit as a weight -/

/-- The weight a 32-bit mask word stands for: the test "word ≠ 0", widened to 32 bits and read as a signed
    integer (1 where the word is not zero, 0 where it is). -/
def wordWeight (w : BitVec 32) : EReal :=
  FloatOps.sitofp (F := Ideal) .f32 ((IntOp.cmpi .ne w (0#32 : BitVec 32)).setWidth 32)

/-- The kernel's spelling of the weights — mask words compared unequal to the zero splat, the bits widened to
    32 bits and converted as signed integers — read at an index. -/
theorem weight_apply {s : Shape} (x1 : IVec s 32) (h : 1 < 32) (j : s.Idx) :
    (sitofp (F := Ideal) .f32 (extui 32 (cmpi .ne x1 (constantI s 32 0#32)) h) : FVec Ideal s .f32) j = wordWeight (x1 j) := rfl

/-- Of a bit widened to 32 bits the weight is the bit read as an unsigned integer: 0 or 1. -/
theorem wordWeight_bit (b : BitVec 1) : wordWeight (b.setWidth 32) = FloatOps.uitofp (F := Ideal) .f32 b := by
  show (((((IntOp.cmpi .ne (b.setWidth 32) (0#32 : BitVec 32)).setWidth 32).toInt : ℤ) : ℝ) : EReal) = (((b.toNat : ℕ) : ℝ) : EReal)
  rcases BitVec.eq_zero_or_eq_one b with hb | hb <;> subst hb
  · have e : ((IntOp.cmpi .ne ((0#1 : BitVec 1).setWidth 32) (0#32 : BitVec 32)).setWidth 32).toInt = 0 := by decide
    rw [e]; simp
  · have e : ((IntOp.cmpi .ne ((1#1 : BitVec 1).setWidth 32) (0#32 : BitVec 32)).setWidth 32).toInt = 1 := by decide
    rw [e]; simp

end Cert.MaskedRowMax

end
-- ==== Proof.TileValue.lean ====
/-
  What the kernel body stores for a tile of 32 rows: at row p of the tile, the masked mean of the row maxima
  of row p of the loaded [32, 30, 5184] block, weighted by the loaded [32, 30] mask words.
-/
import proofs.«148691_j85023172592447_2_alg».proof.Proof.Gen.KernelIdeal.Skeleton
import proofs.«148691_j85023172592447_2_alg».proof.Proof.LibMaskedRowMax

noncomputable section

namespace Cert.KernelIdeal.Tile

open Idealize.ShloMosaic Idealize.ShloMosaic.ValueIdx Cert.KernelIdeal Cert.KernelIdeal.Gen Cert.MaskedRowMax

variable [Cert.KernelIdeal.Facts]

/-- The stored column at (p, u): the sum over the 30 entries of row p of (largest of the 5184 lanes) times
    (weight of the mask word), over the sum of the weights. The two identity casts drop; the column cast reads
    the vector at p; each lane-axis sum is a finite sum; the product and the quotient are entrywise. -/
theorem pay_apply (x0 : Vec Ideal S32x30x5184 .f32) (x1 : Vec Ideal S32x30 .i32) (p : Fin 32) (u : Fin 1) :
    k0_pay1 (F := Ideal) x0 x1 (ix2 p u) = maskedMean x0 (fun j => wordWeight (x1 j)) p := by
  unfold k0_pay1 maskedMean
  simp only [shapeCast_self]
  show Ideal.div _ _ = Ideal.div _ _
  refine congrArg₂ Ideal.div ?_ ?_
  · refine (shapeCast_a_a1_apply _ _ p u).trans ?_
    refine (multiReduction_add_last _ _ _ _ p).trans ?_
    refine Finset.sum_congr rfl fun k _ => ?_
    refine (mulf_apply _ _ _).trans ?_
    refine congrArg₂ (· * ·) ?_ ?_
    · exact multiReduction_max_last x0 _ _ _ p k
    · exact weight_apply x1 _ _
  · refine (shapeCast_a_a1_apply _ _ p u).trans ?_
    refine (multiReduction_add_last _ _ _ _ p).trans ?_
    refine Finset.sum_congr rfl fun k _ => ?_
    exact weight_apply x1 _ _

/-- The same with the tile's rows named as rows of two larger arrays: if row p of the block is row r of A0
    and row p of the mask words is row r of A1, the stored entry is the masked mean of row r of A0 and A1. -/
theorem tile_row (A0 : S256x30x5184.Idx → EReal) (A1 : S256x30.Idx → BitVec 32)
    (x0 : Vec Ideal S32x30x5184 .f32) (x1 : Vec Ideal S32x30 .i32) (y : S32x1.Idx) (p : Fin 32) (u : Fin 1) (r : Fin 256)
    (hy : y = ix2 p u) (h0 : ∀ k l, x0 (ix3 p k l) = A0 (ix3 r k l)) (h1 : ∀ k, x1 (ix2 p k) = A1 (ix2 r k)) :
    k0_pay1 (F := Ideal) x0 x1 y = maskedMean A0 (fun j => wordWeight (A1 j)) r := by
  subst hy
  exact (pay_apply x0 x1 p u).trans
    (maskedMean_congr x0 (fun j => wordWeight (x1 j)) A0 (fun j => wordWeight (A1 j)) p r h0 (fun k => congrArg wordWeight (h1 k)))

end Cert.KernelIdeal.Tile

end
-- ==== Proof.KernelValue.lean ====
/-
  The kernel's result array. The region works on the float argument reshaped to [256, 30, 5184] and on the
  mask reshaped to [256, 30] and widened to 32-bit words; grid point t loads rows 32t … 32t + 31 of both,
  and stores the masked mean of the row maxima of those rows into rows 32t … 32t + 31 of a [256, 1] column;
  the eight blocks tile the column, and the program's last line reshapes the column to a vector of 256.
  So entry r of the result is the masked mean of the row maxima of row r of the reshaped arguments.
-/
import proofs.«148691_j85023172592447_2_alg».proof.Proof.Gen.KernelIdeal.Frame
import proofs.«148691_j85023172592447_2_alg».proof.Proof.TileValue
import Idealize.ShloMosaic.Lib.Pipeline.Value
import Idealize.ShloMosaic.Lib.StableHlo.Run
import Idealize.ShloMosaic.Lib.Tactic

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tile Cert.MaskedRowMax

variable (m : (ℓ : Loc nD τ sig) → Buf (Elt Ideal) ℓ) (ρ : Dev nD → PrngReg)

/-! ## The two arrays the region reads, as the host lines before it leave them -/

/-- The float argument with its two leading axes merged and its three trailing axes merged. -/
theorem V_main_v0 (c : Dev nD) :
    (V m c main_v0 : S256x30x5184.Idx → EReal)
      = shapeCast S256x30x5184 (m ((c : Thread nD τ).loc main_arg0)) shapeCasts_S32x8x30x1x72x72_S256x30x5184 := by
  show StableHlo.after hostOps0 (fun b => m (c, b)) (Proc.devRef .tc main_v0) = _
  after_results
  rfl

/-- The mask with its two leading axes merged, each bit widened to a 32-bit word. -/
theorem V_main_v2 (c : Dev nD) :
    (V m c main_v2 : S256x30.Idx → BitVec 32)
      = extui 32 (shapeCast S256x30 (m ((c : Thread nD τ).loc main_arg1)) shapeCasts_S32x8x30_S256x30) natLt_1_32 := by
  show StableHlo.after hostOps0 (fun b => m (c, b)) (Proc.devRef .tc main_v2) = _
  after_results
  rfl

/-! ## One row of the result, and the column the region writes -/

/-- Row r: the masked mean of the row maxima of row r of the two arrays the region reads. -/
def rowVal (c : Dev nD) (r : Fin 256) : EReal :=
  maskedMean (V m c main_v0 : S256x30x5184.Idx → EReal) (fun j => wordWeight ((V m c main_v2 : S256x30.Idx → BitVec 32) j)) r

/-- The [256, 1] column. -/
def column (c : Dev nD) : Buf (Elt Ideal) ((c : Thread nD τ).loc main_v3) := fun i => rowVal m c (i 0)

/-! ## The blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- At grid point t every window's block index is t on the row axis and 0 on the others. -/
theorem idx_facts : ∀ t : Fin cfg0.N, win0_0.index t (0 : Fin 3) = t.val ∧ win0_0.index t (1 : Fin 3) = 0
    ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of the float block at point t is row 32t + p of the reshaped float argument. -/
theorem iblk0_apply (c : Dev nD) (t : Fin cfg0.N) (x : S32x30x5184.Idx) (i : S256x30x5184.Idx)
    (h0 : (i 0).val = 32 * t.val + (x 0).val) (h1 : (i 1).val = (x 1).val) (h2 : (i 2).val = (x 2).val) :
    (iblk m c 0 t : Vec Ideal S32x30x5184 .f32) x = (V m c main_v0 : S256x30x5184.Idx → EReal) i := by
  obtain ⟨e0, e1, e2, -⟩ := idx_facts t
  show V m c main_v0 (((cfg0.win 0).blk t).view.emb x) = V m c main_v0 i
  refine congrArg (V m c main_v0) (funext fun a => Fin.ext ?_)
  match a with
  | ⟨0, _⟩ => show win0_0.index t (0 : Fin 3) * 32 + 1 * (x 0).val = (i 0).val; rw [e0, h0]; omega
  | ⟨1, _⟩ => show win0_0.index t (1 : Fin 3) * 30 + 1 * (x 1).val = (i 1).val; rw [e1, h1]; omega
  | ⟨2, _⟩ => show win0_0.index t (2 : Fin 3) * 5184 + 1 * (x 2).val = (i 2).val; rw [e2, h2]; omega

/-- Row p of the mask-word block at point t is row 32t + p of the widened mask. -/
theorem iblk1_apply (c : Dev nD) (t : Fin cfg0.N) (x : S32x30.Idx) (i : S256x30.Idx)
    (h0 : (i 0).val = 32 * t.val + (x 0).val) (h1 : (i 1).val = (x 1).val) :
    (iblk m c 1 t : Vec Ideal S32x30 .i32) x = (V m c main_v2 : S256x30.Idx → BitVec 32) i := by
  obtain ⟨-, -, -, e0, e1, -⟩ := idx_facts t
  show V m c main_v2 (((cfg0.win 1).blk t).view.emb x) = V m c main_v2 i
  refine congrArg (V m c main_v2) (funext fun a => Fin.ext ?_)
  match a with
  | ⟨0, _⟩ => show win0_1.index t (0 : Fin 2) * 32 + 1 * (x 0).val = (i 0).val; rw [e0, h0]; omega
  | ⟨1, _⟩ => show win0_1.index t (1 : Fin 2) * 30 + 1 * (x 1).val = (i 1).val; rw [e1, h1]; omega

/-- What point t writes back is rows 32t … 32t + 31 of the column. -/
theorem flushed_eq (c : Dev nD) (t : Fin cfg0.N) :
    (dats m 0 c).flushed 2 t = ((cfg0.win 2).blk t).view.read (Elt Ideal) (column m c) := by
  show (cfg0.win 2).cut (grid0.coords t) ((dats m 0 c).after 2 t) = _
  rw [after0_2]
  unfold out0_2
  rw [View.canon_unit_zero hz2]
  simp only [View.ld_unit_zero (S := S32x30x5184) hz3, View.ld_unit_zero (S := S32x30) hz2]
  obtain ⟨-, -, -, -, -, e0, e1⟩ := idx_facts t
  have hN : cfg0.N = 8 := N_0
  have ht : t.val < 8 := hN ▸ t.isLt
  funext y
  have hy0 : (y 0).val < 32 := (y 0).isLt
  show k0_pay1 (iblk m c 0 t) (iblk m c 1 t) y = rowVal m c ((((cfg0.win 2).blk t).view.emb y) 0)
  have hr : ((((cfg0.win 2).blk t).view.emb y) 0).val = 32 * t.val + (y 0).val := by
    show win0_2.index t (0 : Fin 2) * 32 + 1 * (y 0).val = _
    rw [e0]; omega
  refine tile_row (V m c main_v0) (V m c main_v2) (iblk m c 0 t) (iblk m c 1 t) y (y 0) (y 1)
    ((((cfg0.win 2).blk t).view.emb y) 0) (eq_ix2 y) (fun k l => ?_) (fun k => ?_)
  · exact iblk0_apply m c t (ix3 (y 0) k l) (ix3 ((((cfg0.win 2).blk t).view.emb y) 0) k l) hr rfl rfl
  · exact iblk1_apply m c t (ix2 (y 0) k) (ix2 ((((cfg0.win 2).blk t).view.emb y) 0) k) hr rfl

/-- An index of the column is in point t's block iff each coordinate is in the block's range on its axis. -/
theorem mem_blk (t : Fin cfg0.N) (i : S256x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v3).slice (win0_2.rect t)).set ↔ _
  rw [View.set_slice_whole, Rect.mem_set_unit]
  exact Iff.rfl

/-- Row r of the column is in the block of point r / 32. -/
theorem cover (i : S256x1.Idx) : ∃ t : Fin cfg0.N, (cfg0.win 2).flush t = true ∧ i ∈ ((cfg0.win 2).blk t).view.set := by
  have hN : cfg0.N = 8 := N_0
  have hi0 : (i 0).val < 256 := (i 0).isLt
  have hi1 : (i 1).val < 1 := (i 1).isLt
  let t : Fin cfg0.N := ⟨(i 0).val / 32, by rw [hN]; omega⟩
  obtain ⟨-, -, -, -, -, e0, e1⟩ := idx_facts t
  have e0' : win0_2.index t (0 : Fin 2) = (i 0).val / 32 := e0
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega

/-- The column after the region. -/
theorem final (c : Dev nD) : (dats m 0 c).arrAt 2 cfg0.N = column m c :=
  (dats m 0 c).arrAt_eq_of_cover 2 (column m c) (fun t _ => flushed_eq m c t) cover

/-! ## The program's last line, and the run -/

/-- The result in terms of the launch memory: entry r is the masked mean of the row maxima of row r of the
    float argument reshaped to [256, 30, 5184] and of the mask reshaped to [256, 30], each bit read as 0 or 1. -/
def result (c : Dev nD) : Buf (Elt Ideal) ((c : Thread nD τ).loc main_v4) :=
  maskedMeanOf (R := 256) (K := 30) (L := 5184) (m ((c : Thread nD τ).loc main_arg0)) (m ((c : Thread nD τ).loc main_arg1))
    shapeCasts_S32x8x30x1x72x72_S256x30x5184 shapeCasts_S32x8x30_S256x30

/-- A row of the column in those terms: the region's two arrays are the reshaped arguments, and the weight
    of a widened bit is the bit read as 0 or 1. -/
theorem rowVal_eq (c : Dev nD) (r : Fin 256) : rowVal m c r = result m c (ix1 r) := by
  unfold rowVal result maskedMeanOf
  rw [V_main_v0, V_main_v2]
  refine congrArg (fun W => maskedMean _ W r) (funext fun j => ?_)
  exact wordWeight_bit _

/-- The reshape of the column to a vector reads row r at (r, 0). -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  rw [Pipeline.withArrays_arr spec0 launch0.win.arr_inj c _ _ 2, final]
  funext j
  obtain ⟨r, rfl⟩ : ∃ r : Fin 256, j = ix1 r := ⟨j 0, eq_ix1 j⟩
  refine (shapeCast_a1_a_apply (column m c) _ r).trans ?_
  exact rowVal_eq m c r

/-- Every weakly fair execution terminates with the result vector at result and the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.RefValue.lean ====
/-
  The reference's result, stage by stage, is the masked mean of the row maxima of its reshaped arguments:
  the host's maximum-reduce over the 5184 lanes is the row maximum, the boolean mask converts to 0 / 1,
  each add-reduce over the 30 entries from the zero word is a finite sum, the divide is the ideal quotient.
-/
import proofs.«148691_j85023172592447_2_alg».proof.Proof.Gen.ReferenceIdeal.Read
import proofs.«148691_j85023172592447_2_alg».proof.Proof.LibMaskedRowMax

noncomputable section

namespace Cert.ReferenceIdeal.RefValue

open Idealize.ShloMosaic Idealize.ShloMosaic.ValueIdx Cert.ReferenceIdeal Cert.ReferenceIdeal.Read Cert.MaskedRowMax

variable [Cert.ReferenceIdeal.Facts]
open Cert.ReferenceIdeal.Facts₀

theorem result_eq (x0 : (⟨S32x8x30x1x72x72, .f32⟩ : BufTy).Contents (Elt Ideal)) (x1 : (⟨S32x8x30, .i1⟩ : BufTy).Contents (Elt Ideal)) :
    val_main_v7 (F := Ideal) x0 x1
      = maskedMeanOf (R := 256) (K := 30) (L := 5184) x0 x1 shapeCasts_S32x8x30x1x72x72_S256x30x5184 shapeCasts_S32x8x30_S256x30 := by
  funext j
  obtain ⟨r, rfl⟩ : ∃ r : Fin 256, j = ix1 r := ⟨j 0, eq_ix1 j⟩
  unfold val_main_v7 val_main_v5 val_main_v6 val_main_v4 val_main_v3 val_main_v1 val_main_v0 val_main_v2 val_main_cst val_main_cst_0 val_main_cst_1 maskedMeanOf maskedMean
  show Ideal.div _ _ = Ideal.div _ _
  refine congrArg₂ Ideal.div ?_ ?_
  · refine (hostReduceAdd_last _ _ (by decide) _ r).trans ?_
    refine Finset.sum_congr rfl fun k _ => ?_
    refine (mulf_apply _ _ _).trans ?_
    refine congrArg₂ (· * ·) ?_ rfl
    exact hostReduce_max_last _ _ (by decide) _ r k
  · exact hostReduceAdd_last _ _ (by decide) _ r

end Cert.ReferenceIdeal.RefValue

end
-- ==== Proof.lean ====
/-
  The kernel computes, for each of the 256 (frame, sequence) rows, the mean over the selected memory entries
  of each entry's largest feature: with X the float argument reshaped to [256, 30, 5184] and M the boolean mask
  reshaped to [256, 30] and read as 0 / 1,

      out[r] = ( Σ_k (max_l X[r, k, l]) · M[r, k] ) / ( Σ_k M[r, k] ).

  The kernel takes 32 rows per grid point: a lane maximum from -∞, the mask words turned into 0 / 1 weights, two
  sums over the 30 entries kept as a column, one division; eight blocks tile the [256, 1] column, which is
  reshaped to the result. The reference does the same with one maximum-reduce, a convert, a multiply, two
  add-reduces and a divide on the whole arrays. On the extended reals the two are the same function entry by
  entry: both maxima are the fold of max from -∞ over the 5184 lanes, both sums are the finite sums over the 30
  entries (the reference's start from the zero word), a mask bit widened, tested against zero, widened and
  converted signed is the bit converted unsigned, and both divisions are the ideal quotient of the same two
  numbers. No law of arithmetic that could fail at an infinity is used, so the finiteness of the inputs is
  not needed. The idealization rewrote nothing, so preserves is trivial.
-/
import proofs.«148691_j85023172592447_2_alg».proof.Defs
import proofs.«148691_j85023172592447_2_alg».proof.Proof.Gen.Kernel
import proofs.«148691_j85023172592447_2_alg».proof.Proof.Gen.Kernel.Frame
import proofs.«148691_j85023172592447_2_alg».proof.Proof.Gen.KernelIdeal
import proofs.«148691_j85023172592447_2_alg».proof.Proof.Gen.KernelIdeal.Frame
import proofs.«148691_j85023172592447_2_alg».proof.Proof.Gen.ReferenceIdeal
import proofs.«148691_j85023172592447_2_alg».proof.Proof.Gen.ReferenceIdeal.Run
import proofs.«148691_j85023172592447_2_alg».proof.Proof.Gen.ReferenceIdeal.Read
import proofs.«148691_j85023172592447_2_alg».proof.Proof.Gen.Pre_finite_inputs
import proofs.«148691_j85023172592447_2_alg».proof.Proof.KernelValue
import proofs.«148691_j85023172592447_2_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result at the masked mean of the row maxima of the reshaped arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v7_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
